-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096 : Shape := ⟨2, ![8, 4096]⟩
abbrev S12288x4096 : Shape := ⟨2, ![12288, 4096]⟩
abbrev S12288x1 : Shape := ⟨2, ![12288, 1]⟩
abbrev S12288 : Shape := ⟨1, ![12288]⟩
abbrev S_ : Shape := ⟨0, ![]⟩

class Facts : Prop where
  bcast_S_S8x4096 : S_.BroadcastsInDim S8x4096 (![] : Fin 0 → Fin S8x4096.rank)
  reducesTo_S8x4096_S_d0_1 : S8x4096.ReducesTo [0, 1] S_
  h_S_ : 0 < S_.numel
  bcast_S_S12288x1 : S_.BroadcastsInDim S12288x1 (![] : Fin 0 → Fin S12288x1.rank)
  reducesTo_S12288x1_S_d0_1 : S12288x1.ReducesTo [0, 1] S_
  bcast_S_S12288 : S_.BroadcastsInDim S12288 (![] : Fin 0 → Fin S12288.rank)
  reducesTo_S12288_S_d0 : S12288.ReducesTo [0] S_

variable [Facts]

def fn {F : FTy → Type} [FloatOps F] (main_arg0 : FVec F S8x4096 .f32) (main_arg1 : IVec S12288x4096 32) (main_arg2 : FVec F S12288x1 .f32) (main_arg3 : FVec F S12288 .f32) : IVec S_ 1 :=
  let main_v0 : FVec F S8x4096 .f32 := Host.absf main_arg0
  let main_cst : FVec F S_ .f32 := constant S_ .f32 0x7F800000#32
  let main_v1 : FVec F S8x4096 .f32 := broadcastInDim S8x4096 ![] bcast_S_S8x4096 main_cst
  let main_v2 : IVec S8x4096 1 := cmpf .olt main_v0 main_v1
  let main_c : IVec S_ 1 := constantI S_ 1 1#1
  let main_v3 : IVec S_ 1 := (fun x v => Host.reduce IntOp.andi x v reducesTo_S8x4096_S_d0_1 h_S_) main_v2 main_c
  let main_v4 : FVec F S12288x1 .f32 := Host.absf main_arg2
  let main_cst_0 : FVec F S_ .f32 := constant S_ .f32 0x7F800000#32
  let main_v5 : FVec F S12288x1 .f32 := broadcastInDim S12288x1 ![] bcast_S_S12288x1 main_cst_0
  let main_v6 : IVec S12288x1 1 := cmpf .olt main_v4 main_v5
  let main_c_1 : IVec S_ 1 := constantI S_ 1 1#1
  let main_v7 : IVec S_ 1 := (fun x v => Host.reduce IntOp.andi x v reducesTo_S12288x1_S_d0_1 h_S_) main_v6 main_c_1
  let main_v8 : IVec S_ 1 := andi main_v3 main_v7
  let main_v9 : FVec F S12288 .f32 := Host.absf main_arg3
  let main_cst_2 : FVec F S_ .f32 := constant S_ .f32 0x7F800000#32
  let main_v10 : FVec F S12288 .f32 := broadcastInDim S12288 ![] bcast_S_S12288 main_cst_2
  let main_v11 : IVec S12288 1 := cmpf .olt main_v9 main_v10
  let main_c_3 : IVec S_ 1 := constantI S_ 1 1#1
  let main_v12 : IVec S_ 1 := (fun x v => Host.reduce IntOp.andi x v reducesTo_S12288_S_d0 h_S_) main_v11 main_c_3
  let main_v13 : IVec S_ 1 := andi main_v8 main_v12
  main_v13
-- ==== Kernel.lean ====
abbrev S8x4096 : Shape := ⟨2, ![8, 4096]⟩
abbrev S12288x4096 : Shape := ⟨2, ![12288, 4096]⟩
abbrev S12288x1 : Shape := ⟨2, ![12288, 1]⟩
abbrev S12288 : Shape := ⟨1, ![12288]⟩
abbrev S1x12288 : Shape := ⟨2, ![1, 12288]⟩
abbrev S8x12288 : Shape := ⟨2, ![8, 12288]⟩
abbrev S512x4096 : Shape := ⟨2, ![512, 4096]⟩
abbrev S1x512 : Shape := ⟨2, ![1, 512]⟩
abbrev S8x512 : Shape := ⟨2, ![8, 512]⟩

abbrev nBuf : Space → Nat
  | .hbm => 7
  | .vmem => 9
  | .smem => 0
  | _ => 0

abbrev bufTy : (tb : Table) → Fin (tcTables nBuf tb) → BufTy
  | .hbm, ⟨0, _⟩ => ⟨S8x4096, .f32⟩
  | .hbm, ⟨1, _⟩ => ⟨S12288x4096, .i32⟩
  | .hbm, ⟨2, _⟩ => ⟨S12288x1, .f32⟩
  | .hbm, ⟨3, _⟩ => ⟨S12288, .f32⟩
  | .hbm, ⟨4, _⟩ => ⟨S1x12288, .f32⟩
  | .hbm, ⟨5, _⟩ => ⟨S1x12288, .f32⟩
  | .hbm, ⟨6, _⟩ => ⟨S8x12288, .f32⟩
  | .local _ .vmem, ⟨0, _⟩ => ⟨S8x4096, .f32⟩
  | .local _ .vmem, ⟨1, _⟩ => ⟨S512x4096, .i32⟩
  | .local _ .vmem, ⟨2, _⟩ => ⟨S512x4096, .i32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S8x512, .f32⟩
  | .local _ .vmem, ⟨8, _⟩ => ⟨S8x512, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S12288x1_S1x12288 : S12288x1.ShapeCasts S1x12288
  shapeCasts_S12288_S1x12288 : S12288.ShapeCasts S1x12288
  inb_S8x4096_S8x4096_0_0 : ∀ a, (![0, 0] : Fin 2 → Nat) a + S8x4096.size a ≤ S8x4096.size a
  h_S8x4096 : 0 < S8x4096.numel
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S8x512 : S1x512.Broadcasts S8x512
  inb_S8x512_S8x512_0_0 : ∀ a, (![0, 0] : Fin 2 → Nat) a + S8x512.size a ≤ S8x512.size a
  h_S8x512 : 0 < S8x512.numel
  dot_S8x4096_S512x4096_S8x512_1_1_0_0_n_n_wf : DotDims.WF S8x4096 S512x4096 S8x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x4096.size a ≤ S8x4096.size a
  hwx0_0 : ∀ i : grid0.Coords, EltTy.bits .f32 = 32 ∨ (Rect.block (s := S8x4096) S8x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S12288x4096.size a
  hwx0_1 : ∀ i : grid0.Coords, EltTy.bits .i32 = 32 ∨ (Rect.block (s := S12288x4096) S512x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x12288.size a
  hwx0_2 : ∀ i : grid0.Coords, EltTy.bits .f32 = 32 ∨ (Rect.block (s := S1x12288) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x12288.size a
  hwx0_3 : ∀ i : grid0.Coords, EltTy.bits .f32 = 32 ∨ (Rect.block (s := S1x12288) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x512.size a ≤ S8x12288.size a
  hwx0_4 : ∀ i : grid0.Coords, EltTy.bits .f32 = 32 ∨ (Rect.block (s := S8x12288) S8x512.size (cc0_transform_4 i) (hinb0_4 i)).WholeWords (EltTy.packing .f32)

variable [Facts₀]

def dot_S8x4096_S512x4096_S8x512_1_1_0_0_n_n : DotDims S8x4096 S512x4096 S8x512 where
  lhsContracting := [1]
  rhsContracting := [1]
  lhsNonContracting := [0]
  rhsNonContracting := [0]
  lhsBatch := []
  rhsBatch := []
  wf := dot_S8x4096_S512x4096_S8x512_1_1_0_0_n_n_wf

abbrev win0_0 : Pipeline.Window sig grid0 :=
  Pipeline.Window.ofSpec (Memref.whole main_arg0) S8x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S8x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x4096 : Shape := ⟨2, ![8, 4096]⟩
abbrev S12288x4096 : Shape := ⟨2, ![12288, 4096]⟩
abbrev S12288x1 : Shape := ⟨2, ![12288, 1]⟩
abbrev S12288 : Shape := ⟨1, ![12288]⟩
abbrev S8x12288 : Shape := ⟨2, ![8, 12288]⟩
abbrev S1x12288 : Shape := ⟨2, ![1, 12288]⟩

abbrev nBuf : Space → Nat
  | .hbm => 11
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S12288x4096, .i32⟩
  | .hbm, ⟨2, _⟩ => ⟨S12288x1, .f32⟩
  | .hbm, ⟨3, _⟩ => ⟨S12288, .f32⟩
  | .hbm, ⟨4, _⟩ => ⟨S12288x4096, .f32⟩
  | .hbm, ⟨5, _⟩ => ⟨S12288x4096, .f32⟩
  | .hbm, ⟨6, _⟩ => ⟨S12288x4096, .f32⟩
  | .hbm, ⟨7, _⟩ => ⟨S8x12288, .f32⟩
  | .hbm, ⟨8, _⟩ => ⟨S1x12288, .f32⟩
  | .hbm, ⟨9, _⟩ => ⟨S8x12288, .f32⟩
  | .hbm, ⟨10, _⟩ => ⟨S8x12288, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S12288x1_S12288x4096_0_1 : S12288x1.BroadcastsInDim S12288x4096 (![0, 1] : Fin 2 → Fin S12288x4096.rank)
  bcast_S12288_S1x12288_1 : S12288.BroadcastsInDim S1x12288 (![1] : Fin 1 → Fin S1x12288.rank)
  bcast_S1x12288_S8x12288_0_1 : S1x12288.BroadcastsInDim S8x12288 (![0, 1] : Fin 2 → Fin S8x12288.rank)
  dot_S8x4096_S12288x4096_S8x12288_1_1_0_0_n_n_wf : DotDims.WF S8x4096 S12288x4096 S8x12288 [1] [1] [0] [0] [] []

variable [Facts₀]

def dot_S8x4096_S12288x4096_S8x12288_1_1_0_0_n_n : DotDims S8x4096 S12288x4096 S8x12288 where
  lhsContracting := [1]
  rhsContracting := [1]
  lhsNonContracting := [0]
  rhsNonContracting := [0]
  lhsBatch := []
  rhsBatch := []
  wf := dot_S8x4096_S12288x4096_S8x12288_1_1_0_0_n_n_wf

class Facts : Prop extends Facts₀ where

variable [Facts]
-- ==== Proof.FiniteInputs.lean ====
/-
  What the precondition gives.  It says that every entry of the inputs, of the scales and of the bias is finite:
  `|v| < +∞` entry by entry, all entries, all three arrays.  An extended real whose absolute value is below `+∞` is a
  real number.  The proof needs this of the inputs and of the scales.
-/
import proofs.«128587_j26731876451112_2_alg».proof.Pre_finite_inputs
import proofs.«128587_j26731876451112_2_alg».proof.Proof.Gen.Pre_finite_inputs
import Idealize.ShloMosaic.Lib.ReduceAll
import Idealize.ShloMosaic.Lib.Affine
import Idealize.ShloMosaic.Lib.ValueIdx
import Idealize.ShloMosaic.PureOps.Ideal

noncomputable section

namespace Cert.DequantLinear

open Idealize.ShloMosaic Idealize.ShloMosaic.ValueIdx Cert.Pre_finite_inputs

instance : Subsingleton S_.Idx := ⟨fun a b => funext fun d => d.elim0⟩

/-- The word the precondition compares against is `+∞`. -/
theorem inf_word : Ideal.ofBits .f32 0x7F800000#32 = (⊤ : EReal) := by simp [Ideal.ofBits, Ideal.ieee]

/-- An extended real whose absolute value `max v (-v)` is below `+∞` is a real number. -/
theorem real_of_abs_lt_inf (v : EReal)
    (h : Ideal.cmp .olt (max v (-v)) (Ideal.ofBits .f32 0x7F800000#32) = 1#1) : ∃ a : ℝ, v = (a : EReal) := by
  rw [inf_word] at h
  have hlt : max v (-v) < ⊤ := by
    by_contra hn
    simp [Ideal.cmp, hn] at h
  induction v using EReal.rec with
  | bot => simp at hlt
  | coe a => exact ⟨a, rfl⟩
  | top => simp at hlt

/-- Under the precondition every entry of the inputs and every scale is a real number. -/
theorem real_of_finite (x0 : FVec Ideal S8x4096 .f32) (x1 : IVec S12288x4096 32) (x2 : FVec Ideal S12288x1 .f32)
    (x3 : FVec Ideal S12288 .f32) (h : Cert.Pre_finite_inputs.fn (F := Ideal) x0 x1 x2 x3 = fun _ => 1#1) :
    (∀ j, ∃ a : ℝ, x0 j = (a : EReal)) ∧ (∀ j, ∃ a : ℝ, x2 j = (a : EReal)) := by
  have h0 := congrFun h ix0
  dsimp only [Cert.Pre_finite_inputs.fn] at h0
  obtain ⟨h02, -⟩ := IntOp.andi_eq_one.mp h0
  obtain ⟨hx, hs⟩ := IntOp.andi_eq_one.mp h02
  exact ⟨fun j => real_of_abs_lt_inf (x0 j) (Host.reduce_andi_all _ _ _ _ ix0 hx j),
    fun j => real_of_abs_lt_inf (x2 j) (Host.reduce_andi_all _ _ _ _ ix0 hs j)⟩

end Cert.DequantLinear

end
-- ==== Proof.ScaleOutOfSum.lean ====
/-
  The one law of this certificate, on the extended reals.  A per-row scale that multiplies every
  weight of a row inside a dot product may instead multiply the dot product once:

      ∑ k, x k * (n k * s) = (∑ k, x k * n k) * s

  On the extended reals this is NOT a law in general (with `s = ⊤` and products of both signs the left side is a
  sum of infinities of both signs and the right side a finite number times `⊤`), so it is stated for real `x k`
  and real `s`; the weights `n k` are integers read as reals, hence always real.  Proved by pushing the coercion
  `ℝ → EReal` outwards (it commutes with products, and with finite sums by induction) and `Finset.sum_mul` in `ℝ`.
-/
import Idealize.ShloMosaic.PureOps.Ideal

open scoped BigOperators

namespace Cert.DequantLinear

/-- The coercion of the reals into the extended reals commutes with finite sums. -/
theorem coe_finsum {ι : Type} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A real scale moves out of a finite sum of products of reals: scaling every weight is scaling the dot product. -/
theorem sum_mul_scale {ι : Type} [Fintype ι] (x : ι → EReal) (n : ι → ℝ) (s : EReal)
    (hx : ∀ i, ∃ r : ℝ, x i = (r : EReal)) (hs : ∃ r : ℝ, s = (r : EReal)) :
    ∑ i, x i * ((n i : EReal) * s) = (∑ i, x i * (n i : EReal)) * s := by
  obtain ⟨r, rfl⟩ := hs
  choose a ha using hx
  simp only [ha, ← EReal.coe_mul]
  rw [← coe_finsum, ← coe_finsum, ← EReal.coe_mul, Finset.sum_mul]
  exact congrArg _ (Finset.sum_congr rfl fun i _ => by ring)

end Cert.DequantLinear
-- ==== Proof.LinearSpec.lean ====
/-
  The specification: a linear layer whose weight matrix is stored as integers with one scale per output row.

      linear x w s b [r, o] = (∑ k < 4096, x[r, k] · w[o, k]) · s[o, 0] + b[o]

  over the extended reals: `x : [8, 4096]` the batch of inputs, `w : [12288, 4096]` the integer weights (each word read
  as a signed integer, exactly), `s : [12288, 1]` the per-row scales and `b : [12288]` the bias.  This is the form in
  which the scale is applied AFTER the dot product; the form that scales every weight first is equal to it when the
  inputs and the scales are real numbers (`scaled_weights_eq_linearAt`, by `sum_mul_scale`).
-/
import Idealize.ShloMosaic.Lib.ValueIdx
import proofs.«128587_j26731876451112_2_alg».proof.Proof.ScaleOutOfSum

noncomputable section

open scoped BigOperators

namespace Cert.DequantLinear

open Idealize.ShloMosaic Idealize.ShloMosaic.ValueIdx

/-- The signed integer a 32-bit weight word stands for, as an extended real. -/
abbrev wt (n : BitVec 32) : EReal := ((n.toInt : ℝ) : EReal)

/-- `(∑ k, x[r, k] · w[o, k]) · s[o, 0] + b[o]`: the output at row `r` of the batch and output feature `o`. -/
def linearAt (x : (⟨2, ![8, 4096]⟩ : Shape).Idx → EReal) (w : (⟨2, ![12288, 4096]⟩ : Shape).Idx → BitVec 32)
    (s : (⟨2, ![12288, 1]⟩ : Shape).Idx → EReal) (b : (⟨1, ![12288]⟩ : Shape).Idx → EReal) (r : Fin 8) (o : Fin 12288) : EReal :=
  (∑ k : Fin 4096, x (ix2 r k) * wt (w (ix2 o k))) * s (ix2 o (0 : Fin 1)) + b (ix1 o)

/-- The whole output array `[8, 12288]`, index by index. -/
def linear (x : (⟨2, ![8, 4096]⟩ : Shape).Idx → EReal) (w : (⟨2, ![12288, 4096]⟩ : Shape).Idx → BitVec 32)
    (s : (⟨2, ![12288, 1]⟩ : Shape).Idx → EReal) (b : (⟨1, ![12288]⟩ : Shape).Idx → EReal) :
    (⟨2, ![8, 12288]⟩ : Shape).Idx → EReal :=
  fun i => linearAt x w s b ⟨(i 0).val, idx2_lt0 i⟩ ⟨(i 1).val, idx2_lt1 i⟩

/-- At the index with coordinates `(r, o)`. -/
theorem linear_ix2 (x : (⟨2, ![8, 4096]⟩ : Shape).Idx → EReal) (w : (⟨2, ![12288, 4096]⟩ : Shape).Idx → BitVec 32)
    (s : (⟨2, ![12288, 1]⟩ : Shape).Idx → EReal) (b : (⟨1, ![12288]⟩ : Shape).Idx → EReal) (r : Fin 8) (o : Fin 12288) :
    linear x w s b (ix2 r o) = linearAt x w s b r o := rfl

/-- Scaling every weight of row `o` by `s[o, 0]` before the dot product gives the same number, for real inputs and
    real scales. -/
theorem scaled_weights_eq_linearAt (x : (⟨2, ![8, 4096]⟩ : Shape).Idx → EReal) (w : (⟨2, ![12288, 4096]⟩ : Shape).Idx → BitVec 32)
    (s : (⟨2, ![12288, 1]⟩ : Shape).Idx → EReal) (b : (⟨1, ![12288]⟩ : Shape).Idx → EReal)
    (hx : ∀ j, ∃ a : ℝ, x j = (a : EReal)) (hs : ∀ j, ∃ a : ℝ, s j = (a : EReal)) (r : Fin 8) (o : Fin 12288) :
    (∑ k : Fin 4096, x (ix2 r k) * (wt (w (ix2 o k)) * s (ix2 o (0 : Fin 1)))) + b (ix1 o)
      = linearAt x w s b r o := by
  unfold linearAt
  rw [sum_mul_scale (fun k : Fin 4096 => x (ix2 r k)) (fun k => ((w (ix2 o k)).toInt : ℝ)) _ (fun k => hx _) (hs _)]

end Cert.DequantLinear

end
-- ==== Proof.ReferenceIsLinear.lean ====
/-
  The reference computes `linear`.  Its stages, read at an output index `(r, o)`: every weight `w[o, k]` is
  converted to a float (exactly) and multiplied by its row's scale `s[o, 0]` (the scale column broadcast along the
  row); the dot product of row `r` of `x` with that scaled row `o` is the sum over `k`; the bias `b[o]`, laid
  out as a row and broadcast down the 8 rows, is added.  That is the form with every weight scaled first, which
  is `linear` for real inputs and real scales (`scaled_weights_eq_linear`).
-/
import proofs.«128587_j26731876451112_2_alg».proof.Proof.Gen.ReferenceIdeal.Read
import proofs.«128587_j26731876451112_2_alg».proof.Proof.LinearSpec

noncomputable section

open scoped BigOperators

namespace Cert.DequantLinear

open Idealize.ShloMosaic Idealize.ShloMosaic.ValueIdx Cert.ReferenceIdeal Cert.ReferenceIdeal.Read

/-- The left operand of the dot product at `(r, o)`, `k`: entry `(r, k)` of the inputs. -/
theorem lidx_eq (r : Fin 8) (o : Fin 12288) (k : Fin 4096) : lidx_main_v3 (ix2 r o) k = ix2 r k :=
  funext fun a => Fin.ext (by match a with | ⟨0, _⟩ => rfl | ⟨1, _⟩ => rfl)

/-- The right operand at `(r, o)`, `k`: entry `(o, k)` of the scaled weights. -/
theorem ridx_eq (r : Fin 8) (o : Fin 12288) (k : Fin 4096) : ridx_main_v3 (ix2 r o) k = ix2 o k :=
  funext fun a => Fin.ext (by match a with | ⟨0, _⟩ => rfl | ⟨1, _⟩ => rfl)

/-- The scale broadcast along a row of the weights: entry `(o, k)` reads `s[o, 0]`. -/
theorem scale_idx_eq (o : Fin 12288) (k : Fin 4096) : idx_main_v1 (ix2 o k) = ix2 o (0 : Fin 1) :=
  funext fun a => Fin.ext (by match a with | ⟨0, _⟩ => rfl | ⟨1, _⟩ => rfl)

/-- The bias as a row broadcast down the rows: entry `(r, o)` reads `b[o]`. -/
theorem bias_idx_eq (r : Fin 8) (o : Fin 12288) : idx_main_v4 (idx_main_v5 (ix2 r o)) = ix1 o :=
  funext fun a => Fin.ext (by match a with | ⟨0, _⟩ => rfl)

/-- The reference's result, as the composition of its stages, is `linear` of its arguments when the inputs and
    the scales are real. -/
theorem reference_eq_linear (x0 : (⟨S8x4096, .f32⟩ : BufTy).Contents (Elt Ideal)) (x1 : (⟨S12288x4096, .i32⟩ : BufTy).Contents (Elt Ideal))
    (x2 : (⟨S12288x1, .f32⟩ : BufTy).Contents (Elt Ideal)) (x3 : (⟨S12288, .f32⟩ : BufTy).Contents (Elt Ideal))
    (hx : ∀ j, ∃ a : ℝ, x0 j = (a : EReal)) (hs : ∀ j, ∃ a : ℝ, x2 j = (a : EReal)) :
    val_main_v6 (F := Ideal) x0 x1 x2 x3 = linear x0 x1 x2 x3 := by
  funext i
  obtain ⟨r, o, rfl⟩ : ∃ (r : Fin 8) (o : Fin 12288), i = ix2 r o := ⟨i 0, i 1, eq_ix2 i⟩
  rw [val_main_v6_apply, val_main_v3_apply, val_main_v5_apply, val_main_v4_apply, bias_idx_eq, linear_ix2]
  refine Eq.trans ?_ (scaled_weights_eq_linearAt x0 x1 x2 x3 hx hs r o)
  refine congrArg (· + x3 (ix1 o)) (Finset.sum_congr rfl fun k _ => ?_)
  rw [lidx_eq, ridx_eq, val_main_v2_apply, val_main_v0_apply, val_main_v1_apply, scale_idx_eq]
  rfl

end Cert.DequantLinear

end
-- ==== Proof.BodyAtIndex.lean ====
/-
  The kernel body at one element of its output block.  At a grid point the body loads the whole input block
  `x : [8, 4096]`, a block of 512 weight rows `w : [512, 4096]`, and the matching 512 scales and biases, each as a
  row `[1, 512]`; it multiplies `x` by the transposed weight block into a zero accumulator, multiplies the
  `[8, 512]` product by the scale row broadcast down the 8 rows, and adds the bias row broadcast the same way.
  Over the extended reals the change of float format is the identity and an integer converts to itself, so the
  element `(r, q)` of the block stored is

      (∑ k < 4096, x[r, k] · w[q, k]) · scale[0, q] + bias[0, q].
-/
import proofs.«128587_j26731876451112_2_alg».proof.Proof.Gen.KernelIdeal.Skeleton
import proofs.«128587_j26731876451112_2_alg».proof.Proof.LinearSpec
import Idealize.ShloMosaic.Lib.Pipeline.Value
import Idealize.ShloMosaic.Lib.ValueIdx
import Idealize.ShloMosaic.PureOps.Ideal.Laws

noncomputable section

open scoped BigOperators

namespace Cert.DequantLinear

open Idealize.ShloMosaic Idealize.ShloMosaic.ValueIdx Cert.KernelIdeal Cert.KernelIdeal.Gen

/-! ## The product of the inputs with a block of weight rows -/

/-- The dot's dimension numbers contract axis 1 of both operands and keep axis 0 of each: at the output index
    `(r, q)` and contraction index `k` the left operand is read at `(r, k)` … -/
theorem lhs_row (i : S8x512.Idx) (c : dot_S8x4096_S512x4096_S8x512_1_1_0_0_n_n.contr.Idx) :
    (dot_S8x4096_S512x4096_S8x512_1_1_0_0_n_n.lhsIdx i c 0).val = (i 0).val := by
  unfold DotDims.lhsIdx
  rw [dif_neg (show ¬(0 : Fin S8x4096.rank) ∈ dot_S8x4096_S512x4096_S8x512_1_1_0_0_n_n.lhsBatch by decide),
    dif_pos (show (0 : Fin S8x4096.rank) ∈ dot_S8x4096_S512x4096_S8x512_1_1_0_0_n_n.lhsNonContracting by decide)]
  rfl
theorem lhs_col (i : S8x512.Idx) (c : dot_S8x4096_S512x4096_S8x512_1_1_0_0_n_n.contr.Idx) :
    (dot_S8x4096_S512x4096_S8x512_1_1_0_0_n_n.lhsIdx i c 1).val = (c ⟨0, by decide⟩).val :=
  dot_S8x4096_S512x4096_S8x512_1_1_0_0_n_n.lhsIdx_val_of_single rfl i c
/-- … and the right operand at `(q, k)`. -/
theorem rhs_row (i : S8x512.Idx) (c : dot_S8x4096_S512x4096_S8x512_1_1_0_0_n_n.contr.Idx) :
    (dot_S8x4096_S512x4096_S8x512_1_1_0_0_n_n.rhsIdx i c 0).val = (i 1).val := by
  unfold DotDims.rhsIdx
  rw [dif_neg (show ¬(0 : Fin S512x4096.rank) ∈ dot_S8x4096_S512x4096_S8x512_1_1_0_0_n_n.rhsBatch by decide),
    dif_pos (show (0 : Fin S512x4096.rank) ∈ dot_S8x4096_S512x4096_S8x512_1_1_0_0_n_n.rhsNonContracting by decide)]
  rfl
theorem rhs_col (i : S8x512.Idx) (c : dot_S8x4096_S512x4096_S8x512_1_1_0_0_n_n.contr.Idx) :
    (dot_S8x4096_S512x4096_S8x512_1_1_0_0_n_n.rhsIdx i c 1).val = (c ⟨0, by decide⟩).val :=
  dot_S8x4096_S512x4096_S8x512_1_1_0_0_n_n.rhsIdx_val_of_single rfl i c

/-- The matrix product into a zero accumulator, at `(r, q)`: the dot product of row `r` of the left operand with
    row `q` of the right one. -/
theorem dot_at (a : FVec Ideal S8x4096 .bf16) (b : FVec Ideal S512x4096 .bf16) (r : Fin 8) (q : Fin 512) :
    matmul dot_S8x4096_S512x4096_S8x512_1_1_0_0_n_n none a b (constant S8x512 .f32 0x00000000#32) (ix2 r q)
      = ∑ k : Fin 4096, a (ix2 r k) * b (ix2 q k) := by
  simp only [matmul]
  rw [Ideal.matmul_constant_zero_apply, ← Equiv.sum_comp (contrEquiv1 dot_S8x4096_S512x4096_S8x512_1_1_0_0_n_n 4096 rfl rfl).symm]
  refine Finset.sum_congr rfl fun k _ => ?_
  have hk := contrEquiv1_symm_val dot_S8x4096_S512x4096_S8x512_1_1_0_0_n_n 4096 rfl rfl k
  have el : dot_S8x4096_S512x4096_S8x512_1_1_0_0_n_n.lhsIdx (ix2 r q) ((contrEquiv1 dot_S8x4096_S512x4096_S8x512_1_1_0_0_n_n 4096 rfl rfl).symm k) = ix2 r k :=
    funext fun d => Fin.ext (by
      match d with
      | ⟨0, _⟩ => exact lhs_row _ _
      | ⟨1, _⟩ => exact (lhs_col _ _).trans hk)
  have er : dot_S8x4096_S512x4096_S8x512_1_1_0_0_n_n.rhsIdx (ix2 r q) ((contrEquiv1 dot_S8x4096_S512x4096_S8x512_1_1_0_0_n_n 4096 rfl rfl).symm k) = ix2 q k :=
    funext fun d => Fin.ext (by
      match d with
      | ⟨0, _⟩ => exact rhs_row _ _
      | ⟨1, _⟩ => exact (rhs_col _ _).trans hk)
  rw [el, er]

/-! ## A row broadcast down the rows -/

/-- A `[1, 512]` row, cast to its own shape and broadcast to `[8, 512]`, read at `(r, q)`: the row's entry `q`. -/
theorem row_down_at (v : Vec Ideal S1x512 .f32) (h1 : S1x512.ShapeCasts S1x512) (h2 : S1x512.Broadcasts S8x512)
    (r : Fin 8) (q : Fin 512) :
    broadcastTo S8x512 (shapeCast S1x512 v h1) h2 (ix2 r q) = v (ix2 (0 : Fin 1) q) := by
  rw [shapeCast_self]
  exact broadcastTo_apply v h2 (ix2 r q) (ix2 (0 : Fin 1) q) (fun a => by
    match a with
    | ⟨0, _⟩ => show (0 : Nat) = if (1 : Nat) = 1 then 0 else _; rw [if_pos rfl]
    | ⟨1, _⟩ => show q.val = if (512 : Nat) = 1 then 0 else q.val; rw [if_neg (by decide)])

/-! ## The stored block -/

/-- Element `(r, q)` of the block the body stores, from the blocks it loaded. -/
theorem body_at (v0 : Vec Ideal S8x4096 .f32) (v2 : Vec Ideal S512x4096 .i32) (v5 v9 : Vec Ideal S1x512 .f32)
    (r : Fin 8) (q : Fin 512) :
    k0_pay1 (F := Ideal) v0 v2 v5 v9 (ix2 r q)
      = (∑ k : Fin 4096, v0 (ix2 r k) * wt (v2 (ix2 q k))) * v5 (ix2 (0 : Fin 1) q) + v9 (ix2 (0 : Fin 1) q) := by
  have h1 := dot_at (truncf (F := Ideal) .bf16 v0 Facts₀.bitsLt_bf16_f32) (sitofp (F := Ideal) .bf16 v2) r q
  have h2 := row_down_at v5 Facts₀.shapeCasts_S1x512_S1x512 Facts₀.broadcasts_S1x512_S8x512 r q
  have h3 := row_down_at v9 Facts₀.shapeCasts_S1x512_S1x512 Facts₀.broadcasts_S1x512_S8x512 r q
  unfold k0_pay1
  show matmul (F := Ideal) dot_S8x4096_S512x4096_S8x512_1_1_0_0_n_n none (truncf (F := Ideal) .bf16 v0 Facts₀.bitsLt_bf16_f32) (sitofp (F := Ideal) .bf16 v2) (constant (F := Ideal) S8x512 .f32 0x00000000#32) (ix2 r q)
      * broadcastTo (α := EReal) S8x512 (shapeCast S1x512 v5 Facts₀.shapeCasts_S1x512_S1x512) Facts₀.broadcasts_S1x512_S8x512 (ix2 r q)
      + broadcastTo S8x512 (shapeCast S1x512 v9 Facts₀.shapeCasts_S1x512_S1x512) Facts₀.broadcasts_S1x512_S8x512 (ix2 r q) = _
  rw [h1, h2, h3]
  rfl

end Cert.DequantLinear

end
-- ==== Proof.HostRows.lean ====
/-
  What the region finds in the two arrays the host writes before it.  The scale column `[12288, 1]` and the bias
  vector `[12288]` are each reshaped to a row `[1, 12288]`; a reshape keeps the row-major position, so entry
  `(0, o)` of the scale row is `scale[o, 0]` and entry `(0, o)` of the bias row is `bias[o]`.
-/
import proofs.«128587_j26731876451112_2_alg».proof.Proof.Gen.KernelIdeal.Frame
import Idealize.ShloMosaic.Lib.StableHlo.Run
import Idealize.ShloMosaic.Lib.Pipeline.Value
import Idealize.ShloMosaic.Lib.ValueIdx

noncomputable section

namespace Cert.DequantLinear

open Idealize.ShloMosaic Idealize.ShloMosaic.TcCoe Idealize.SL.Sem Idealize.ShloMosaic.ValueIdx
open Cert.KernelIdeal Cert.KernelIdeal.Gen Idealize.ShloMosaic.StableHlo

variable (m : (ℓ : Loc nD τ sig) → Buf (Elt Ideal) ℓ)

/-- The scale row as the region finds it: the scale column, reshaped. -/
theorem scale_row_eq (c : Dev nD) :
    (V m c main_v0 : S1x12288.Idx → EReal)
      = shapeCast S1x12288 (m ((c : Thread nD τ).loc main_arg2)) Facts₀.shapeCasts_S12288x1_S1x12288 := by
  dsimp only [Gen.V, Gen.hostOps0]
  after_results
  rfl

/-- The bias row as the region finds it: the bias vector, reshaped. -/
theorem bias_row_eq (c : Dev nD) :
    (V m c main_v1 : S1x12288.Idx → EReal)
      = shapeCast S1x12288 (m ((c : Thread nD τ).loc main_arg3)) Facts₀.shapeCasts_S12288_S1x12288 := by
  dsimp only [Gen.V, Gen.hostOps0]
  after_results
  rfl

/-- Entry `(0, o)` of the scale row is `scale[o, 0]`: both sit at row-major position `o`. -/
theorem scale_row_at (c : Dev nD) (o : Fin 12288) :
    (V m c main_v0 : S1x12288.Idx → EReal) (ix2 (0 : Fin 1) o) = m ((c : Thread nD τ).loc main_arg2) (ix2 o (0 : Fin 1)) := by
  rw [scale_row_eq]
  exact shapeCast_apply _ _ (ix2 (0 : Fin 1) o) (ix2 o (0 : Fin 1)) (by
    rw [Shape.rowMajor_val_two, Shape.rowMajor_val_two]
    show o.val * 1 + 0 = 0 * 12288 + o.val
    omega)

/-- Entry `(0, o)` of the bias row is `bias[o]`. -/
theorem bias_row_at (c : Dev nD) (o : Fin 12288) :
    (V m c main_v1 : S1x12288.Idx → EReal) (ix2 (0 : Fin 1) o) = m ((c : Thread nD τ).loc main_arg3) (ix1 o) := by
  rw [bias_row_eq]
  exact shapeCast_apply _ _ (ix2 (0 : Fin 1) o) (ix1 o) (by
    rw [Shape.rowMajor_val_one, Shape.rowMajor_val_two]
    show o.val = 0 * 12288 + o.val
    omega)

end Cert.DequantLinear

end
-- ==== Proof.KernelIsLinear.lean ====
/-
  The kernel's output array is `linear` of its arguments.  The grid has 24 points; point `t` sees the whole input
  block `x`, the 512 weight rows `512·t … 512·t + 511`, the same 512 entries of the scale row and of the bias row, and
  writes back the `[8, 512]` block of output columns `512·t … 512·t + 511`.  So element `(r, q)` of what point `t`
  writes is `linear` at `(r, 512·t + q)` (`block_eq`, from the body read at an index), the 24 blocks cover the
  `[8, 12288]` array (column `o` lies in block `o / 512`), and the array after the run is `linear` everywhere.
-/
import proofs.«128587_j26731876451112_2_alg».proof.Proof.Gen.KernelIdeal.Value
import proofs.«128587_j26731876451112_2_alg».proof.Proof.BodyAtIndex
import proofs.«128587_j26731876451112_2_alg».proof.Proof.HostRows

noncomputable section

open scoped BigOperators

namespace Cert.DequantLinear

open Idealize.ShloMosaic Idealize.ShloMosaic.TcCoe Idealize.SL.Sem Idealize.ShloMosaic.ValueIdx
open Cert.KernelIdeal Cert.KernelIdeal.Gen
open Idealize.ShloMosaic.Pipeline (Dat)

/-! ## One block, over abstract loaded blocks -/

/-- If the loaded blocks are: all of `X`; rows `512·T + q` of `W`; entries `512·T + q` of the scale column `S` and of
    the bias `B` — then element `j` of the stored block is `linear X W S B` at the array index `i` with the same row
    and with column `512·T + (j 1)`. -/
theorem block_eq (x0 : Vec Ideal S8x4096 .f32) (x1 : Vec Ideal S512x4096 .i32) (x2 x3 : Vec Ideal S1x512 .f32)
    (X : (⟨2, ![8, 4096]⟩ : Shape).Idx → EReal) (W : (⟨2, ![12288, 4096]⟩ : Shape).Idx → BitVec 32)
    (S : (⟨2, ![12288, 1]⟩ : Shape).Idx → EReal) (B : (⟨1, ![12288]⟩ : Shape).Idx → EReal)
    (T : Nat) (hT : T < 24)
    (h0 : ∀ (r : Fin 8) (k : Fin 4096), x0 (ix2 r k) = X (ix2 r k))
    (h1 : ∀ (q : Fin 512) (k : Fin 4096), x1 (ix2 q k) = W (ix2 (⟨T * 512 + q.val, by have := q.isLt; omega⟩ : Fin 12288) k))
    (h2 : ∀ q : Fin 512, x2 (ix2 (0 : Fin 1) q) = S (ix2 (⟨T * 512 + q.val, by have := q.isLt; omega⟩ : Fin 12288) (0 : Fin 1)))
    (h3 : ∀ q : Fin 512, x3 (ix2 (0 : Fin 1) q) = B (ix1 (⟨T * 512 + q.val, by have := q.isLt; omega⟩ : Fin 12288)))
    (r : Fin 8) (q : Fin 512) :
    k0_pay1 (F := Ideal) x0 x1 x2 x3 (ix2 r q)
      = linear X W S B (ix2 r (⟨T * 512 + q.val, by have := q.isLt; omega⟩ : Fin 12288)) := by
  rw [body_at, linear_ix2, h2, h3]
  unfold linearAt
  exact congrArg (fun z => z * _ + _) (Finset.sum_congr rfl fun k _ => by rw [h0, h1])

/-! ## The grid's blocks -/

variable (m : (ℓ : Loc nD τ sig) → Buf (Elt Ideal) ℓ) (ρ : Dev nD → PrngReg)

theorem offsets_zero : (![0, 0] : Fin 2 → Nat) = fun _ => 0 := funext fun a => by fin_cases a <;> rfl

/-- The printed index maps over the 24 grid points: the input block is always block `(0, 0)`; the weights' row
    block, the scale row's and the bias row's column block and the output's column block are all the point's
    number. -/
theorem block_indices : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val ∧ t.val < 24 :=
  (by decide +kernel : ∀ t : Fin grid0.N, _)

/-- Every column block is some point's. -/
theorem block_of_column : ∀ T : Fin 24, ∃ t : Fin cfg0.N, t.val = T.val :=
  (by decide +kernel : ∀ T : Fin 24, ∃ t : Fin grid0.N, t.val = T.val)

/-- What point `t` writes back is block `t` of `linear` of the argument arrays. -/
theorem flushed_eq (c : Dev nD) (t : Fin cfg0.N) :
    (dats m 0 c).flushed 4 t = ((cfg0.win 4).blk t).view.read (Elt Ideal)
      (linear (m ((c : Thread nD τ).loc main_arg0)) (m ((c : Thread nD τ).loc main_arg1))
        (m ((c : Thread nD τ).loc main_arg2)) (m ((c : Thread nD τ).loc main_arg3))) := by
  rw [Cert.KernelIdeal.Value.flushed4]
  unfold out0_4
  rw [View.canon_unit_zero offsets_zero]
  simp only [View.ld_unit_zero (S := S8x4096) offsets_zero, View.ld_unit_zero (S := S512x4096) offsets_zero,
    View.ld_unit_zero (S := S1x512) offsets_zero]
  obtain ⟨e00, e01, e10, e11, e20, e21, e30, e31, e40, e41, ht⟩ := block_indices t
  funext j
  obtain ⟨r, q, rfl⟩ : ∃ (r : Fin 8) (q : Fin 512), j = ix2 r q := ⟨j 0, j 1, eq_ix2 j⟩
  show k0_pay1 (F := Ideal) (iblk m c 0 t) (iblk m c 1 t) (iblk m c 2 t) (iblk m c 3 t) (ix2 r q)
    = linear (m ((c : Thread nD τ).loc main_arg0)) (m ((c : Thread nD τ).loc main_arg1))
        (m ((c : Thread nD τ).loc main_arg2)) (m ((c : Thread nD τ).loc main_arg3)) (((cfg0.win 4).blk t).view.emb (ix2 r q))
  -- the array index of element (r, q) of the output's block: row r, column 512·t + q
  have hi : ((cfg0.win 4).blk t).view.emb (ix2 r q) = ix2 r (⟨t.val * 512 + q.val, by have := q.isLt; omega⟩ : Fin 12288) :=
    funext fun a => Fin.ext (by
      match a with
      | ⟨0, _⟩ => show win0_4.index t (0 : Fin 2) * 8 + 1 * r.val = r.val; omega
      | ⟨1, _⟩ => show win0_4.index t (1 : Fin 2) * 512 + 1 * q.val = t.val * 512 + q.val; omega)
  rw [hi]
  refine block_eq _ _ _ _ _ _ _ _ t.val ht ?_ ?_ ?_ ?_ r q
  · -- the input block is the whole array of inputs
    intro r k
    show V m c main_arg0 (((cfg0.win 0).blk t).view.emb (ix2 r k)) = _
    rw [V_main_arg0]
    refine congrArg _ (funext fun a => Fin.ext ?_)
    match a with
    | ⟨0, _⟩ => show win0_0.index t (0 : Fin 2) * 8 + 1 * r.val = r.val; omega
    | ⟨1, _⟩ => show win0_0.index t (1 : Fin 2) * 4096 + 1 * k.val = k.val; omega
  · -- the weight block is rows 512·t … of the weights
    intro q k
    show V m c main_arg1 (((cfg0.win 1).blk t).view.emb (ix2 q k)) = _
    rw [V_main_arg1]
    refine congrArg _ (funext fun a => Fin.ext ?_)
    match a with
    | ⟨0, _⟩ => show win0_1.index t (0 : Fin 2) * 512 + 1 * q.val = t.val * 512 + q.val; omega
    | ⟨1, _⟩ => show win0_1.index t (1 : Fin 2) * 4096 + 1 * k.val = k.val; omega
  · -- the scale block is entries 512·t … of the scale row, that is of the scale column
    intro q
    show (V m c main_v0 : S1x12288.Idx → EReal) (((cfg0.win 2).blk t).view.emb (ix2 (0 : Fin 1) q)) = _
    have he : ((cfg0.win 2).blk t).view.emb (ix2 (0 : Fin 1) q)
        = ix2 (0 : Fin 1) (⟨t.val * 512 + q.val, by have := q.isLt; omega⟩ : Fin 12288) :=
      funext fun a => Fin.ext (by
        match a with
        | ⟨0, _⟩ => show win0_2.index t (0 : Fin 2) * 1 + 1 * 0 = 0; omega
        | ⟨1, _⟩ => show win0_2.index t (1 : Fin 2) * 512 + 1 * q.val = t.val * 512 + q.val; omega)
    rw [he]
    exact scale_row_at m c _
  · -- the bias block is entries 512·t … of the bias row, that is of the bias
    intro q
    show (V m c main_v1 : S1x12288.Idx → EReal) (((cfg0.win 3).blk t).view.emb (ix2 (0 : Fin 1) q)) = _
    have he : ((cfg0.win 3).blk t).view.emb (ix2 (0 : Fin 1) q)
        = ix2 (0 : Fin 1) (⟨t.val * 512 + q.val, by have := q.isLt; omega⟩ : Fin 12288) :=
      funext fun a => Fin.ext (by
        match a with
        | ⟨0, _⟩ => show win0_3.index t (0 : Fin 2) * 1 + 1 * 0 = 0; omega
        | ⟨1, _⟩ => show win0_3.index t (1 : Fin 2) * 512 + 1 * q.val = t.val * 512 + q.val; omega)
    rw [he]
    exact bias_row_at m c _

/-! ## The blocks cover the array -/

/-- An index of the output array is in point `t`'s block iff each coordinate is in the block's range on its axis. -/
theorem mem_block (t : Fin cfg0.N) (i : S8x12288.Idx) :
    i ∈ ((cfg0.win 4).blk t).view.set ↔ ∀ a : Fin 2, win0_4.index t a * S8x512.size a ≤ (i a).val ∧ (i a).val < win0_4.index t a * S8x512.size a + S8x512.size a := by
  show i ∈ ((View.whole main_v2).slice (win0_4.rect t)).set ↔ _
  rw [View.set_slice_whole, Rect.mem_set_unit]
  exact Iff.rfl

/-- Every index `(r, o)` of the output array is in the block of the point `o / 512`, which writes back. -/
theorem covered (i : S8x12288.Idx) :
    ∃ t : Fin cfg0.N, (cfg0.win 4).flush t = true ∧ i ∈ ((cfg0.win 4).blk t).view.set := by
  have hi0 : (i 0).val < 8 := (i 0).isLt
  have hi1 : (i 1).val < 12288 := (i 1).isLt
  obtain ⟨t, ht⟩ := block_of_column ⟨(i 1).val / 512, by omega⟩
  have ht' : t.val = (i 1).val / 512 := ht
  obtain ⟨-, -, -, -, -, -, -, -, e40, e41, -⟩ := block_indices t
  refine ⟨t, flush0_4 t, ?_⟩
  rw [mem_block]
  intro a
  match a with
  | ⟨0, _⟩ => show win0_4.index t (0 : Fin 2) * 8 ≤ (i 0).val ∧ (i 0).val < win0_4.index t (0 : Fin 2) * 8 + 8; omega
  | ⟨1, _⟩ => show win0_4.index t (1 : Fin 2) * 512 ≤ (i 1).val ∧ (i 1).val < win0_4.index t (1 : Fin 2) * 512 + 512; omega

/-! ## The array after the run -/

/-- The output array after the run is `linear` of the argument arrays, everywhere. -/
theorem final (c : Dev nD) :
    (dats m 0 c).arrAt 4 cfg0.N
      = linear (m ((c : Thread nD τ).loc main_arg0)) (m ((c : Thread nD τ).loc main_arg1))
          (m ((c : Thread nD τ).loc main_arg2)) (m ((c : Thread nD τ).loc main_arg3)) :=
  (dats m 0 c).arrAt_eq_of_cover 4 _ (fun t _ => flushed_eq m c t) covered

/-- Every weakly fair execution of the kernel's program terminates with the result array at `linear` of the
    arguments, and the arguments unchanged. -/
theorem run : θ_run defs (onTc (τ := τ) (main (F := Ideal))) ⟨m, fun _ => 0, ρ⟩ fun r => ∀ c : Dev nD,
      r.2.mem ((c : Thread nD τ).loc main_v2)
        = linear (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.DequantLinear

end
-- ==== Proof.lean ====
/-
  A linear layer with integer weights and one scale per output row: the kernel against its reference.

  Both programs take inputs `x : [8, 4096]`, integer weights `w : [12288, 4096]`, scales `s : [12288, 1]` and a bias
  `b : [12288]`, and return `[8, 12288]`.

    reference :  y[r, o] = ∑ k, x[r, k] · (w[o, k] · s[o, 0]) + b[o]      every weight scaled first, then the dot product
    kernel    :  y[r, o] = (∑ k, x[r, k] · w[o, k]) · s[o, 0] + b[o]      the dot product first, then one scaling

  The kernel works through the 12288 output columns in 24 blocks of 512: a grid point multiplies the inputs with 512
  weight rows, scales the `[8, 512]` product by the matching 512 scales and adds the matching 512 biases; the scales
  and the bias reach it as rows `[1, 12288]`, reshaped on the host.  Over the extended reals a change of float format
  is the identity and the conversion of an integer is exact, so the two results differ only in where the scale
  multiplies.  A factor moves out of a sum on the extended reals only when nothing is infinite; the precondition
  says every input and every scale is finite, that is real, the weights are integers, and then

      ∑ k, x k · (n k · s) = (∑ k, x k · n k) · s          (ScaleOutOfSum.lean)

  is the law of the reals.  The bias is added last on both sides and needs nothing.

  The modules: LinearSpec (the function `linear`, in the kernel's arrangement, and the law applied to it),
  ReferenceIsLinear (the reference's stages read at an index), BodyAtIndex (the kernel body's stored block at an
  index), HostRows (what the two reshapes hold), KernelIsLinear (the 24 blocks are the blocks of `linear` and cover
  the array), FiniteInputs (the precondition gives real inputs and scales).  The three frames are the generated
  ones; the idealization changed no operation, so nothing is owed for it.
-/
import proofs.«128587_j26731876451112_2_alg».proof.Defs
import proofs.«128587_j26731876451112_2_alg».proof.Proof.Gen.Kernel
import proofs.«128587_j26731876451112_2_alg».proof.Proof.Gen.Kernel.Skeleton
import proofs.«128587_j26731876451112_2_alg».proof.Proof.Gen.Kernel.Launch
import proofs.«128587_j26731876451112_2_alg».proof.Proof.Gen.Kernel.Points
import proofs.«128587_j26731876451112_2_alg».proof.Proof.Gen.Kernel.Frame
import proofs.«128587_j26731876451112_2_alg».proof.Proof.Gen.KernelIdeal
import proofs.«128587_j26731876451112_2_alg».proof.Proof.Gen.KernelIdeal.Skeleton
import proofs.«128587_j26731876451112_2_alg».proof.Proof.Gen.KernelIdeal.Launch
import proofs.«128587_j26731876451112_2_alg».proof.Proof.Gen.KernelIdeal.Points
import proofs.«128587_j26731876451112_2_alg».proof.Proof.Gen.KernelIdeal.Frame
import proofs.«128587_j26731876451112_2_alg».proof.Proof.Gen.ReferenceIdeal
import proofs.«128587_j26731876451112_2_alg».proof.Proof.Gen.Pre_finite_inputs
import proofs.«128587_j26731876451112_2_alg».proof.Proof.Gen.KernelIdeal.Value
import proofs.«128587_j26731876451112_2_alg».proof.Proof.Gen.ReferenceIdeal.Run
import proofs.«128587_j26731876451112_2_alg».proof.Proof.Gen.ReferenceIdeal.Read
import proofs.«128587_j26731876451112_2_alg».proof.Proof.FiniteInputs
import proofs.«128587_j26731876451112_2_alg».proof.Proof.ReferenceIsLinear
import proofs.«128587_j26731876451112_2_alg».proof.Proof.KernelIsLinear
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is host operations only: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments, of which the precondition holds, both programs end with the result
    array at `linear` of the arguments: the kernel by its blocks, the reference by its stages and the law, which is
    where the inputs and the scales being real is used. -/
theorem algebraic : Cert.algebraic_KernelIdeal_ReferenceIdeal := by
  intro m ρ m' ρ' hpre hagree
  refine ⟨_, Cert.DequantLinear.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hs⟩ := Cert.DequantLinear.real_of_finite _ _ _ _ (hpre c)
  rw [Cert.ReferenceIdeal.Read.val_main_v6_eq, (hagree c).1, (hagree c).2.1, (hagree c).2.2.1, (hagree c).2.2.2]
  exact Cert.DequantLinear.reference_eq_linear _ _ _ _ hx hs

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
